-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x4 : Shape := ⟨2, ![100000, 4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S100000x4 .f32) (main_arg2 : FVec F S128x128 .f32) (main_arg3 : FVec F S128 .f32) (main_arg4 : FVec F S128x64 .f32) (main_arg5 : FVec F S64 .f32) (main_arg6 : IVec S2x1600000 32) (main_arg7 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x4 .f32 := Host.absf main_arg1
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x64 : Shape := ⟨2, ![100000, 64]⟩
abbrev S100000x4 : Shape := ⟨2, ![100000, 4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S1x128 : Shape := ⟨2, ![1, 128]⟩
abbrev S1x64 : Shape := ⟨2, ![1, 64]⟩
abbrev S6400x64 : Shape := ⟨2, ![6400, 64]⟩
abbrev S6400x128 : Shape := ⟨2, ![6400, 128]⟩
abbrev S100000x1 : Shape := ⟨2, ![100000, 1]⟩

abbrev nBuf : Space → Nat
  | .hbm => 46
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000x4, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x1600000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S64x128, .f32⟩
  | .hbm, ⟨31, _⟩ => ⟨S64x128, .f32⟩
  | .hbm, ⟨32, _⟩ => ⟨S1x128, .f32⟩
  | .hbm, ⟨33, _⟩ => ⟨S1x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S128x64, .f32⟩
  | .hbm, ⟨44, _⟩ => ⟨S100000x1, .i32⟩
  | .hbm, ⟨45, _⟩ => ⟨S128x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S6400x64, .f32⟩
  | .local _ .vmem, ⟨10, _⟩ => ⟨S6400x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x128_S64x128_0_0 : S128x128.Slices ![0, 0] S64x128
  slices_S128x128_S64x128_64_0 : S128x128.Slices ![64, 0] S64x128
  shapeCasts_S128_S1x128 : S128.ShapeCasts S1x128
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S100000x64 : S_.BroadcastsInDim S100000x64 (![] : Fin 0 → Fin S100000x64.rank)
  slices_S100000x4_S100000x1_0_0 : S100000x4.Slices ![0, 0] S100000x1
  bcast_S100000x1_S100000x64_0_1 : S100000x1.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  gather_S100000x64_S1600000x1_S1600000x64_1_0_n_n_0_1_164_wf : GatherDims.WF S100000x64 S1600000x1 S1600000x64 [1] [0] [] [0] [] 1 ![1, 64]
  dot_S6400x64_S64x128_S6400x128_1_0_0_1_n_n_wf : DotDims.WF S6400x64 S64x128 S6400x128 [1] [0] [0] [1] [] []
  dot_S6400x128_S128x64_S6400x64_1_0_0_1_n_n_wf : DotDims.WF S6400x128 S128x64 S6400x64 [1] [0] [0] [1] [] []
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S1600000x64.size a
  hwx0_7 : ∀ i : grid0.Coords, EltTy.bits .f32 = 32 ∨ (Rect.block (s := S1600000x64) S6400x64.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x4 : Shape := ⟨2, ![100000, 4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x128 : Shape := ⟨2, ![1, 128]⟩
abbrev S1x64 : Shape := ⟨2, ![1, 64]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x4, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x1600000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S1600000x128, .f32⟩
  | .hbm, ⟨31, _⟩ => ⟨S1600000x128, .f32⟩
  | .hbm, ⟨32, _⟩ => ⟨S1x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S1600000x128, .f32⟩
  | .hbm, ⟨37, _⟩ => ⟨S1600000x128, .f32⟩
  | .hbm, ⟨38, _⟩ => ⟨S1600000x64, .f32⟩
  | .hbm, ⟨39, _⟩ => ⟨S1x64, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S128x64, .f32⟩
  | .hbm, ⟨51, _⟩ => ⟨S100000x1, .i32⟩
  | .hbm, ⟨52, _⟩ => ⟨S128x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  slices_S100000x4_S100000x1_0_0 : S100000x4.Slices ![0, 0] S100000x1
  bcast_S100000x1_S100000x64_0_1 : S100000x1.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf

class Facts : Prop extends Facts₀ where

variable [Facts]
-- ==== Proof.EdgeMlp.lean ====
/-
  The mathematics both programs compute for one edge, stated once, over the extended reals.

  An edge has a destination row `a` and a source row `b` (64 features each). The first layer has 128 hidden
  units: unit `j` is the rectified sum `max (a · Wa[:, j] + b · Wb[:, j] + c1 j) 0`, where `Wa` and `Wb` are the top and
  bottom halves of the 128 × 128 weight matrix. The second layer maps the 128 hidden units to 64 outputs:
  output `o` is `(∑ j, hidden j · W2 j o) + c2 o`.

  The only algebra between the two programs is that a sum of 128 terms is the sum of its first 64 and its last
  64 terms: one program multiplies the concatenated row `[a, b]` by the whole matrix, the other multiplies `a` by the
  top half and `b` by the bottom half and adds. Addition on the extended reals is associative and commutative, so
  this holds whatever the entries are, infinite ones included: no finiteness is used.

  The zero the rectifier compares with is kept as the float word `0x00000000` both programs print; it is the same
  term on both sides and is never evaluated.
-/
import Idealize.ShloMosaic.PureOps.Ideal
import Idealize.ShloMosaic.Lib.ValueIdx
import Mathlib.Algebra.BigOperators.Fin

noncomputable section

open scoped BigOperators

namespace Cert.EdgeMlp

open Idealize.ShloMosaic Idealize.ShloMosaic.ValueIdx

/-- The rectifier's zero, as the float word of both programs read at the ideal instance. -/
abbrev zeroWord : EReal := Ideal.ofBits .f32 0x00000000#32

/-- Hidden unit `j` of an edge with destination row `a` and source row `b`: the two half products, added, plus the
    bias, rectified. -/
def hidden (a b : Fin 64 → EReal) (Wa Wb : Fin 64 → Fin 128 → EReal) (c1 : Fin 128 → EReal) (j : Fin 128) : EReal :=
  max (((∑ k : Fin 64, a k * Wa k j) + (∑ k : Fin 64, b k * Wb k j)) + c1 j) zeroWord

/-- Output `o` of the edge: the hidden units through the second layer, plus its bias. -/
def edgeOut (a b : Fin 64 → EReal) (Wa Wb : Fin 64 → Fin 128 → EReal) (c1 : Fin 128 → EReal)
    (W2 : Fin 128 → Fin 64 → EReal) (c2 : Fin 64 → EReal) (o : Fin 64) : EReal :=
  (∑ j : Fin 128, hidden a b Wa Wb c1 j * W2 j o) + c2 o

/-- A sum of 128 terms is the sum of the first 64 plus the sum of the last 64. -/
theorem sum_halves (f : Fin 128 → EReal) :
    ∑ k : Fin 128, f k
      = (∑ k : Fin 64, f ⟨k.val, by omega⟩) + ∑ k : Fin 64, f ⟨64 + k.val, by omega⟩ :=
  Fin.sum_univ_add (a := 64) (b := 64) f

/-- The whole edge array, 1,600,000 rows of 64 outputs: row `e` is the edge whose destination and source rows are
    row `e` of `xd` and of `xs`; the weights and biases are read off their arrays by coordinates (the biases are
    stored as one-row matrices). -/
def edges (xd xs : (⟨2, ![1600000, 64]⟩ : Shape).Idx → EReal) (wa wb : (⟨2, ![64, 128]⟩ : Shape).Idx → EReal)
    (c1 : (⟨2, ![1, 128]⟩ : Shape).Idx → EReal) (w2 : (⟨2, ![128, 64]⟩ : Shape).Idx → EReal)
    (c2 : (⟨2, ![1, 64]⟩ : Shape).Idx → EReal) : (⟨2, ![1600000, 64]⟩ : Shape).Idx → EReal :=
  fun i => edgeOut (fun k => xd (ix2 (i 0) k)) (fun k => xs (ix2 (i 0) k)) (fun k j => wa (ix2 k j))
    (fun k j => wb (ix2 k j)) (fun j => c1 (ix2 0 j)) (fun j o => w2 (ix2 j o)) (fun o => c2 (ix2 0 o)) (i 1)

end Cert.EdgeMlp

end
-- ==== Proof.PayloadAtIndex.lean ====
/-
  The kernel's one stored value, read at an index.

  The kernel body computes, for a block of 6400 edges at once, a two-layer perceptron: the destination rows times
  the top half of the first weight matrix plus the source rows times the bottom half, plus the first bias, rectified,
  then times the second weight matrix plus the second bias. At the ideal instance every float is an extended real,
  the format changes are the identity, and a matrix product into a zero accumulator is, entry by entry, the plain
  sum over the contracted axis. So entry `(p, q)` of the stored block is the one-edge formula of the specification
  at row `p` of the two row blocks, output `q`.
-/
import proofs.«103658_j10943576670837_1_alg».proof.Proof.Gen.KernelIdeal.Skeleton
import proofs.«103658_j10943576670837_1_alg».proof.Proof.EdgeMlp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EdgeValue
open Cert.KernelIdeal Cert.KernelIdeal.Gen Idealize.ShloMosaic Idealize.ShloMosaic.ValueIdx

/-- Row coordinate of the left operand's index at output `i`: the output's row. -/
theorem matmul_first_lhs0 (i : S6400x128.Idx) (c : dot_S6400x64_S64x128_S6400x128_1_0_0_1_n_n.contr.Idx) :
    (dot_S6400x64_S64x128_S6400x128_1_0_0_1_n_n.lhsIdx i c 0).val = (i 0).val := by
  unfold DotDims.lhsIdx
  rw [dif_neg (show ¬(0 : Fin S6400x64.rank) ∈ dot_S6400x64_S64x128_S6400x128_1_0_0_1_n_n.lhsBatch by decide),
    dif_pos (show (0 : Fin S6400x64.rank) ∈ dot_S6400x64_S64x128_S6400x128_1_0_0_1_n_n.lhsNonContracting by decide)]
  rfl
/-- Column coordinate of the right operand's index at output `i`: the output's column. -/
theorem matmul_first_rhs1 (i : S6400x128.Idx) (c : dot_S6400x64_S64x128_S6400x128_1_0_0_1_n_n.contr.Idx) :
    (dot_S6400x64_S64x128_S6400x128_1_0_0_1_n_n.rhsIdx i c 1).val = (i 1).val := by
  unfold DotDims.rhsIdx
  rw [dif_neg (show ¬(1 : Fin S64x128.rank) ∈ dot_S6400x64_S64x128_S6400x128_1_0_0_1_n_n.rhsBatch by decide),
    dif_pos (show (1 : Fin S64x128.rank) ∈ dot_S6400x64_S64x128_S6400x128_1_0_0_1_n_n.rhsNonContracting by decide)]
  rfl
/-- A product of a 6400 × 64 block with a 64 × 128 matrix into the zero accumulator, at entry `(p, j)`: the sum over the 64 contracted positions `k` of row `p` at `k` times column `j` at `k`. -/
theorem matmul_first_apply (l : FVec Ideal S6400x64 .bf16) (r : FVec Ideal S64x128 .bf16) (p : Fin 6400) (j : Fin 128) :
    matmul dot_S6400x64_S64x128_S6400x128_1_0_0_1_n_n none l r (constant (F := Ideal) S6400x128 .f32 0x00000000#32) (ix2 p j)
      = ∑ k : Fin 64, l (ix2 p k) * r (ix2 k j) := by
  refine (Ideal.matmul_constant_zero_apply dot_S6400x64_S64x128_S6400x128_1_0_0_1_n_n none l r (ix2 p j)).trans ?_
  rw [← Equiv.sum_comp (ValueIdx.contrEquiv1 dot_S6400x64_S64x128_S6400x128_1_0_0_1_n_n 64 rfl rfl).symm]
  refine Finset.sum_congr rfl fun k _ => ?_
  have hk := ValueIdx.contrEquiv1_symm_val dot_S6400x64_S64x128_S6400x128_1_0_0_1_n_n 64 rfl rfl k
  have el : dot_S6400x64_S64x128_S6400x128_1_0_0_1_n_n.lhsIdx (ix2 p j) ((ValueIdx.contrEquiv1 dot_S6400x64_S64x128_S6400x128_1_0_0_1_n_n 64 rfl rfl).symm k) = ix2 p k :=
    funext fun a => Fin.ext (by
      match a with
      | ⟨0, _⟩ => exact matmul_first_lhs0 _ _
      | ⟨1, _⟩ => exact (dot_S6400x64_S64x128_S6400x128_1_0_0_1_n_n.lhsIdx_val_of_single rfl _ _).trans hk)
  have er : dot_S6400x64_S64x128_S6400x128_1_0_0_1_n_n.rhsIdx (ix2 p j) ((ValueIdx.contrEquiv1 dot_S6400x64_S64x128_S6400x128_1_0_0_1_n_n 64 rfl rfl).symm k) = ix2 k j :=
    funext fun a => Fin.ext (by
      match a with
      | ⟨0, _⟩ => exact (dot_S6400x64_S64x128_S6400x128_1_0_0_1_n_n.rhsIdx_val_of_single rfl _ _).trans hk
      | ⟨1, _⟩ => exact matmul_first_rhs1 _ _)
  rw [el, er]

/-- Row coordinate of the left operand's index at output `i`: the output's row. -/
theorem matmul_second_lhs0 (i : S6400x64.Idx) (c : dot_S6400x128_S128x64_S6400x64_1_0_0_1_n_n.contr.Idx) :
    (dot_S6400x128_S128x64_S6400x64_1_0_0_1_n_n.lhsIdx i c 0).val = (i 0).val := by
  unfold DotDims.lhsIdx
  rw [dif_neg (show ¬(0 : Fin S6400x128.rank) ∈ dot_S6400x128_S128x64_S6400x64_1_0_0_1_n_n.lhsBatch by decide),
    dif_pos (show (0 : Fin S6400x128.rank) ∈ dot_S6400x128_S128x64_S6400x64_1_0_0_1_n_n.lhsNonContracting by decide)]
  rfl
/-- Column coordinate of the right operand's index at output `i`: the output's column. -/
theorem matmul_second_rhs1 (i : S6400x64.Idx) (c : dot_S6400x128_S128x64_S6400x64_1_0_0_1_n_n.contr.Idx) :
    (dot_S6400x128_S128x64_S6400x64_1_0_0_1_n_n.rhsIdx i c 1).val = (i 1).val := by
  unfold DotDims.rhsIdx
  rw [dif_neg (show ¬(1 : Fin S128x64.rank) ∈ dot_S6400x128_S128x64_S6400x64_1_0_0_1_n_n.rhsBatch by decide),
    dif_pos (show (1 : Fin S128x64.rank) ∈ dot_S6400x128_S128x64_S6400x64_1_0_0_1_n_n.rhsNonContracting by decide)]
  rfl
/-- A product of a 6400 × 128 block with a 128 × 64 matrix into the zero accumulator, at entry `(p, j)`: the sum over the 128 contracted positions `k` of row `p` at `k` times column `j` at `k`. -/
theorem matmul_second_apply (l : FVec Ideal S6400x128 .bf16) (r : FVec Ideal S128x64 .bf16) (p : Fin 6400) (j : Fin 64) :
    matmul dot_S6400x128_S128x64_S6400x64_1_0_0_1_n_n none l r (constant (F := Ideal) S6400x64 .f32 0x00000000#32) (ix2 p j)
      = ∑ k : Fin 128, l (ix2 p k) * r (ix2 k j) := by
  refine (Ideal.matmul_constant_zero_apply dot_S6400x128_S128x64_S6400x64_1_0_0_1_n_n none l r (ix2 p j)).trans ?_
  rw [← Equiv.sum_comp (ValueIdx.contrEquiv1 dot_S6400x128_S128x64_S6400x64_1_0_0_1_n_n 128 rfl rfl).symm]
  refine Finset.sum_congr rfl fun k _ => ?_
  have hk := ValueIdx.contrEquiv1_symm_val dot_S6400x128_S128x64_S6400x64_1_0_0_1_n_n 128 rfl rfl k
  have el : dot_S6400x128_S128x64_S6400x64_1_0_0_1_n_n.lhsIdx (ix2 p j) ((ValueIdx.contrEquiv1 dot_S6400x128_S128x64_S6400x64_1_0_0_1_n_n 128 rfl rfl).symm k) = ix2 p k :=
    funext fun a => Fin.ext (by
      match a with
      | ⟨0, _⟩ => exact matmul_second_lhs0 _ _
      | ⟨1, _⟩ => exact (dot_S6400x128_S128x64_S6400x64_1_0_0_1_n_n.lhsIdx_val_of_single rfl _ _).trans hk)
  have er : dot_S6400x128_S128x64_S6400x64_1_0_0_1_n_n.rhsIdx (ix2 p j) ((ValueIdx.contrEquiv1 dot_S6400x128_S128x64_S6400x64_1_0_0_1_n_n 128 rfl rfl).symm k) = ix2 k j :=
    funext fun a => Fin.ext (by
      match a with
      | ⟨0, _⟩ => exact (dot_S6400x128_S128x64_S6400x64_1_0_0_1_n_n.rhsIdx_val_of_single rfl _ _).trans hk
      | ⟨1, _⟩ => exact matmul_second_rhs1 _ _)
  rw [el, er]

/-- Entry `(p, q)` of the block the kernel stores is the specification's one-edge output `q` for the edge whose
    destination and source rows are row `p` of the two row blocks, with the weights and biases read off their arrays
    by coordinates. -/
theorem payload_apply (x0 x1 : Vec Ideal S6400x64 .f32) (x2 x3 : Vec Ideal S64x128 .f32) (x4 : Vec Ideal S1x128 .f32)
    (x5 : Vec Ideal S128x64 .f32) (x6 : Vec Ideal S1x64 .f32) (p : Fin 6400) (q : Fin 64) :
    k0_pay1 (F := Ideal) x0 x1 x2 x3 x4 x5 x6 (ix2 p q)
      = Cert.EdgeMlp.edgeOut (fun k => x0 (ix2 p k)) (fun k => x1 (ix2 p k)) (fun k j => x2 (ix2 k j)) (fun k j => x3 (ix2 k j))
          (fun j => x4 (ix2 0 j)) (fun j o => x5 (ix2 j o)) (fun o => x6 (ix2 0 o)) q := by
  unfold k0_pay1 Cert.EdgeMlp.edgeOut
  simp only [shapeCast_self]
  -- the last addition, entry by entry: the second product plus the second bias's one row
  refine (addf_apply _ _ _).trans (congrArg₂ (· + ·) ?_ (broadcastTo_1b_ab_apply x6 _ p q))
  -- the second product at `(p, q)` is the sum over the 128 hidden units
  refine (matmul_second_apply _ _ p q).trans (Finset.sum_congr rfl fun j _ => ?_)
  refine congrArg₂ (· * ·) ?_ rfl
  -- hidden unit `j` of row `p`: the format change is the identity, the rectifier is the maximum with the zero word
  unfold Cert.EdgeMlp.hidden
  refine (truncf_apply (φ := .f32) (ψ := .bf16) _ bitsLt_bf16_f32 (ix2 p j)).trans ?_
  refine (maximumf_apply _ _ _).trans (congrArg₂ max ?_ rfl)
  -- the two half products, added, plus the first bias's one row
  refine (addf_apply _ _ _).trans (congrArg₂ (· + ·) ?_ (broadcastTo_1b_ab_apply x4 _ p j))
  exact (addf_apply _ _ _).trans (congrArg₂ (· + ·) (matmul_first_apply _ _ p j) (matmul_first_apply _ _ p j))

end Cert.KernelIdeal.EdgeValue

end
-- ==== Proof.BlocksToArray.lean ====
/-
  From blocks to the whole edge array.

  The kernel's region runs over 250 grid points. At point `t` it reads rows `6400·t … 6400·t + 6399` of the two gathered
  feature arrays (destination rows and source rows, one row per edge) and, at every point, the whole of the two
  half matrices, the second-layer matrix and the two biases; it writes rows `6400·t … 6400·t + 6399` of its output.
  The body's stored value at row `p` of the block is the per-edge function of row `p` of the two feature blocks, that
  is, of rows `6400·t + p` of the arrays. So what point `t` writes back is block `t` of ONE whole-array function, the
  edge array `Cert.EdgeMlp.edges` of the region's input arrays; the 250 blocks tile the 1,600,000 rows (row `e` lies
  in block `e / 6400`), hence after the region the output array is that function, whole.
-/
import proofs.«103658_j10943576670837_1_alg».proof.Proof.Gen.KernelIdeal.Frame
import proofs.«103658_j10943576670837_1_alg».proof.Proof.EdgeMlp
import proofs.«103658_j10943576670837_1_alg».proof.Proof.PayloadAtIndex
import Idealize.ShloMosaic.Lib.Pipeline.Value
import Idealize.ShloMosaic.Lib.ValueIdx

set_option maxRecDepth 16384

noncomputable section

namespace Cert.KernelIdeal.EdgeArray

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- Where each window's block sits at grid point `t`: the two row-tiled inputs and the output are at block row `t`,
    block column 0; the five weight and bias windows are the whole of their arrays at every point. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 ∧ t.val < 250 :=
  (by decide +kernel : ∀ t : Fin grid0.N, _)

/-- Row `p` of the destination-feature block at point `t` is row `6400·t + p` of the gathered destination array. -/
theorem read_dst (c : Dev nD) (t : Fin cfg0.N) (p : Fin 6400) (k : Fin 64) (e : Fin 1600000)
    (he : e.val = t.val * 6400 + p.val) : iblk m c 0 t (ix2 p k) = V m c main_v10 (ix2 e k) := by
  obtain ⟨e0, e1, -⟩ := block_positions t
  show V m c main_v10 (((cfg0.win 0).blk t).view.emb (ix2 p k)) = V m c main_v10 (ix2 e k)
  have h : ((cfg0.win 0).blk t).view.emb (ix2 p k) = ix2 e k := by
    funext a; apply Fin.ext
    match a with
    | ⟨0, _⟩ => show win0_0.index t (0 : Fin 2) * 6400 + 1 * p.val = e.val; omega
    | ⟨1, _⟩ => show win0_0.index t (1 : Fin 2) * 64 + 1 * k.val = k.val; omega
  rw [h]

/-- The same for the source-feature block. -/
theorem read_src (c : Dev nD) (t : Fin cfg0.N) (p : Fin 6400) (k : Fin 64) (e : Fin 1600000)
    (he : e.val = t.val * 6400 + p.val) : iblk m c 1 t (ix2 p k) = V m c main_v17 (ix2 e k) := by
  obtain ⟨-, -, e0, e1, -⟩ := block_positions t
  show V m c main_v17 (((cfg0.win 1).blk t).view.emb (ix2 p k)) = V m c main_v17 (ix2 e k)
  have h : ((cfg0.win 1).blk t).view.emb (ix2 p k) = ix2 e k := by
    funext a; apply Fin.ext
    match a with
    | ⟨0, _⟩ => show win0_1.index t (0 : Fin 2) * 6400 + 1 * p.val = e.val; omega
    | ⟨1, _⟩ => show win0_1.index t (1 : Fin 2) * 64 + 1 * k.val = k.val; omega
  rw [h]

/-- The weight and bias windows hold their whole arrays at every point. -/
theorem read_wa (c : Dev nD) (t : Fin cfg0.N) (k : Fin 64) (j : Fin 128) : iblk m c 2 t (ix2 k j) = V m c main_v18 (ix2 k j) := by
  obtain ⟨-, -, -, -, e0, e1, -⟩ := block_positions t
  show V m c main_v18 (((cfg0.win 2).blk t).view.emb (ix2 k j)) = V m c main_v18 (ix2 k j)
  have h : ((cfg0.win 2).blk t).view.emb (ix2 k j) = ix2 k j := by
    funext a; apply Fin.ext
    match a with
    | ⟨0, _⟩ => show win0_2.index t (0 : Fin 2) * 64 + 1 * k.val = k.val; omega
    | ⟨1, _⟩ => show win0_2.index t (1 : Fin 2) * 128 + 1 * j.val = j.val; omega
  rw [h]

theorem read_wb (c : Dev nD) (t : Fin cfg0.N) (k : Fin 64) (j : Fin 128) : iblk m c 3 t (ix2 k j) = V m c main_v19 (ix2 k j) := by
  obtain ⟨-, -, -, -, -, -, e0, e1, -⟩ := block_positions t
  show V m c main_v19 (((cfg0.win 3).blk t).view.emb (ix2 k j)) = V m c main_v19 (ix2 k j)
  have h : ((cfg0.win 3).blk t).view.emb (ix2 k j) = ix2 k j := by
    funext a; apply Fin.ext
    match a with
    | ⟨0, _⟩ => show win0_3.index t (0 : Fin 2) * 64 + 1 * k.val = k.val; omega
    | ⟨1, _⟩ => show win0_3.index t (1 : Fin 2) * 128 + 1 * j.val = j.val; omega
  rw [h]

theorem read_c1 (c : Dev nD) (t : Fin cfg0.N) (j : Fin 128) : iblk m c 4 t (ix2 0 j) = V m c main_v20 (ix2 0 j) := by
  obtain ⟨-, -, -, -, -, -, -, -, e0, e1, -⟩ := block_positions t
  show V m c main_v20 (((cfg0.win 4).blk t).view.emb (ix2 0 j)) = V m c main_v20 (ix2 0 j)
  have h : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 128 + 1 * j.val = j.val; omega
  rw [h]

theorem read_w2 (c : Dev nD) (t : Fin cfg0.N) (j : Fin 128) (o : Fin 64) : iblk m c 5 t (ix2 j o) = V m c main_arg4 (ix2 j o) := by
  obtain ⟨-, -, -, -, -, -, -, -, -, -, e0, e1, -⟩ := block_positions t
  show V m c main_arg4 (((cfg0.win 5).blk t).view.emb (ix2 j o)) = V m c main_arg4 (ix2 j o)
  have h : ((cfg0.win 5).blk t).view.emb (ix2 j o) = ix2 j o := by
    funext a; apply Fin.ext
    match a with
    | ⟨0, _⟩ => show win0_5.index t (0 : Fin 2) * 128 + 1 * j.val = j.val; omega
    | ⟨1, _⟩ => show win0_5.index t (1 : Fin 2) * 64 + 1 * o.val = o.val; omega
  rw [h]

theorem read_c2 (c : Dev nD) (t : Fin cfg0.N) (o : Fin 64) : iblk m c 6 t (ix2 0 o) = V m c main_v21 (ix2 0 o) := by
  obtain ⟨-, -, -, -, -, -, -, -, -, -, -, -, e0, e1, -⟩ := block_positions t
  show V m c main_v21 (((cfg0.win 6).blk t).view.emb (ix2 0 o)) = V m c main_v21 (ix2 0 o)
  have h : ((cfg0.win 6).blk t).view.emb (ix2 (0 : Fin 1) o) = ix2 (0 : Fin 1) o := by
    funext a; apply Fin.ext
    match a with
    | ⟨0, _⟩ => show win0_6.index t (0 : Fin 2) * 1 + 1 * 0 = 0; omega
    | ⟨1, _⟩ => show win0_6.index t (1 : Fin 2) * 64 + 1 * o.val = o.val; omega
  rw [h]

/-- The edge array as the region's input arrays determine it: the per-edge function of row `e` of the two gathered
    feature arrays and of the weights, at every row `e` and output column. -/
abbrev edgesOf (c : Dev nD) : S1600000x64.Idx → EReal :=
  Cert.EdgeMlp.edges (V m c main_v10) (V m c main_v17) (V m c main_v18) (V m c main_v19) (V m c main_v20)
    (V m c main_arg4) (V m c main_v21)

/-- What grid point `t` writes back is block `t` of the edge array: 6400 consecutive edges, each computed from its own
    two feature rows. -/
theorem flushed_eq (c : Dev nD) (t : Fin cfg0.N) :
    (dats m 0 c).flushed 7 t = ((cfg0.win 7).blk t).view.read (Elt Ideal) (edgesOf m c) := by
  show (cfg0.win 7).cut (grid0.coords t) ((dats m 0 c).after 7 t) = _
  rw [after0_7]
  unfold out0_7
  rw [View.canon_unit_zero origin]
  simp only [View.ld_unit_zero (S := S6400x64) origin, View.ld_unit_zero (S := S64x128) origin,
    View.ld_unit_zero (S := S1x128) origin, View.ld_unit_zero (S := S128x64) origin, View.ld_unit_zero (S := S1x64) origin]
  funext y
  obtain ⟨p, q, rfl⟩ : ∃ (p : Fin 6400) (q : Fin 64), y = ix2 p q := ⟨y 0, y 1, eq_ix2 y⟩
  obtain ⟨-, -, -, -, -, -, -, -, -, -, -, -, -, -, e7, e7', hlt⟩ := block_positions t
  have he : t.val * 6400 + p.val < 1600000 := by have := p.isLt; omega
  refine (Cert.KernelIdeal.EdgeValue.payload_apply (iblk m c 0 t) (iblk m c 1 t) (iblk m c 2 t) (iblk m c 3 t)
    (iblk m c 4 t) (iblk m c 5 t) (iblk m c 6 t) p q).trans ?_
  have h7 : ((cfg0.win 7).blk t).view.emb (ix2 p q) = ix2 (⟨t.val * 6400 + p.val, he⟩ : Fin 1600000) q := by
    funext a; apply Fin.ext
    match a with
    | ⟨0, _⟩ => show win0_7.index t (0 : Fin 2) * 6400 + 1 * p.val = t.val * 6400 + p.val; omega
    | ⟨1, _⟩ => show win0_7.index t (1 : Fin 2) * 64 + 1 * q.val = q.val; omega
  show _ = edgesOf m c (((cfg0.win 7).blk t).view.emb (ix2 p q))
  rw [h7]
  have r0 : (fun k => iblk m c 0 t (ix2 p k)) = fun k => V m c main_v10 (ix2 (⟨t.val * 6400 + p.val, he⟩ : Fin 1600000) k) :=
    funext fun k => read_dst m c t p k ⟨_, he⟩ rfl
  have r1 : (fun k => iblk m c 1 t (ix2 p k)) = fun k => V m c main_v17 (ix2 (⟨t.val * 6400 + p.val, he⟩ : Fin 1600000) k) :=
    funext fun k => read_src m c t p k ⟨_, he⟩ rfl
  have r2 : (fun k j => iblk m c 2 t (ix2 k j)) = fun k j => V m c main_v18 (ix2 k j) :=
    funext fun k => funext fun j => read_wa m c t k j
  have r3 : (fun k j => iblk m c 3 t (ix2 k j)) = fun k j => V m c main_v19 (ix2 k j) :=
    funext fun k => funext fun j => read_wb m c t k j
  have r4 : (fun j => iblk m c 4 t (ix2 0 j)) = fun j => V m c main_v20 (ix2 0 j) :=
    funext fun j => read_c1 m c t j
  have r5 : (fun j o => iblk m c 5 t (ix2 j o)) = fun j o => V m c main_arg4 (ix2 j o) :=
    funext fun j => funext fun o => read_w2 m c t j o
  have r6 : (fun o => iblk m c 6 t (ix2 0 o)) = fun o => V m c main_v21 (ix2 0 o) :=
    funext fun o => read_c2 m c t o
  rw [r0, r1, r2, r3, r4, r5, r6]
  rfl

/-- An index of the edge array lies in point `t`'s block iff each coordinate lies in the block's range. -/
theorem mem_blk (t : Fin cfg0.N) (i : S1600000x64.Idx) :
    i ∈ ((cfg0.win 7).blk t).view.set ↔ ∀ a : Fin 2, win0_7.index t a * S6400x64.size a ≤ (i a).val
      ∧ (i a).val < win0_7.index t a * S6400x64.size a + S6400x64.size a := by
  show i ∈ ((View.whole main_v22).slice (win0_7.rect t)).set ↔ _
  rw [View.set_slice_whole, Rect.mem_set_unit]
  exact Iff.rfl

/-- Every block row is some grid point's. -/
theorem point_of_block_row : ∀ r : Fin 250, ∃ t : Fin cfg0.N, win0_7.index t = ![r.val, 0] :=
  (by decide +kernel : ∀ r : Fin 250, ∃ t : Fin grid0.N, win0_7.index t = ![r.val, 0])

/-- The 250 blocks of 6400 rows tile the 1,600,000 rows: row `e` is in the block of point `e / 6400`. -/
theorem cover (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  obtain ⟨t, ht⟩ := point_of_block_row ⟨(i 0).val / 6400, by omega⟩
  have q0 : win0_7.index t (0 : Fin 2) = (i 0).val / 6400 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 64 ≤ (i 1).val ∧ (i 1).val < win0_7.index t (1 : Fin 2) * 64 + 64; omega

/-- After the region the kernel's output array is the edge array, whole. -/
theorem final (c : Dev nD) : (dats m 0 c).arrAt 7 cfg0.N = edgesOf m c :=
  (dats m 0 c).arrAt_eq_of_cover 7 (edgesOf m c) (fun t _ => flushed_eq m c t) (cover)

end Cert.KernelIdeal.EdgeArray

end
-- ==== Proof.HostAround.lean ====
/-
  The host operations around the kernel's region.

  Before the region the kernel program prepares the region's inputs: the destination and the source rows of the node
  array (two gathers by the two rows of the edge list, negative indices wrapped once by the node count), the top and
  the bottom half of the first-layer matrix (two slices), and the two biases as one-row matrices (two reshapes). The
  two gathers are the same operations on the same arguments as the reference program's, so they are identified with
  the reference's terms and never opened.

  After the region the program sums the edge array into destination nodes, scales each node by the first column of
  `p` and sums the nodes into graphs. The reference applies the same chain to its own edge array, so the chain is
  carried as ONE function `pooled` of the edge array and never opened: the two results are equal as soon as the two
  edge arrays are.
-/
import proofs.«103658_j10943576670837_1_alg».proof.Proof.Gen.KernelIdeal.Frame
import proofs.«103658_j10943576670837_1_alg».proof.Proof.Gen.ReferenceIdeal.Read
import Idealize.ShloMosaic.Lib.StableHlo.Run
import Idealize.ShloMosaic.Lib.Pipeline.Value

set_option maxRecDepth 16384

noncomputable section

namespace Cert.KernelIdeal.HostAround

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-! ## What the region finds in its input arrays -/

/-- The top half of the first-layer matrix: rows 0 to 63. -/
theorem head_wa (c : Dev nD) :
    V m c main_v18 = extractStridedSlice S64x128 ![0, 0] (m ((c : Thread nD τ).loc main_arg2)) Facts₀.slices_S128x128_S64x128_0_0 := by
  show StableHlo.after hostOps0 (fun b => m (c, b)) (Proc.devRef .tc main_v18) = _
  after_results

/-- The bottom half: rows 64 to 127. -/
theorem head_wb (c : Dev nD) :
    V m c main_v19 = extractStridedSlice S64x128 ![64, 0] (m ((c : Thread nD τ).loc main_arg2)) Facts₀.slices_S128x128_S64x128_64_0 := by
  show StableHlo.after hostOps0 (fun b => m (c, b)) (Proc.devRef .tc main_v19) = _
  after_results

/-- The first bias as a one-row matrix. -/
theorem head_c1 (c : Dev nD) :
    V m c main_v20 = shapeCast S1x128 (m ((c : Thread nD τ).loc main_arg3)) Facts₀.shapeCasts_S128_S1x128 := by
  show StableHlo.after hostOps0 (fun b => m (c, b)) (Proc.devRef .tc main_v20) = _
  after_results; rfl

/-- The second bias as a one-row matrix. -/
theorem head_c2 (c : Dev nD) :
    V m c main_v21 = shapeCast S1x64 (m ((c : Thread nD τ).loc main_arg5)) Facts₀.shapeCasts_S64_S1x64 := by
  show StableHlo.after hostOps0 (fun b => m (c, b)) (Proc.devRef .tc main_v21) = _
  after_results; rfl

/-- The destination index of every edge: row 1 of the edge list. -/
theorem head_dst_index (c : Dev nD) :
    V m c main_v3 = shapeCast S1600000 (extractStridedSlice S1x1600000 ![1, 0] (m ((c : Thread nD τ).loc main_arg6))
      Facts₀.slices_S2x1600000_S1x1600000_1_0) Facts₀.shapeCasts_S1x1600000_S1600000 := by
  show StableHlo.after hostOps0 (fun b => m (c, b)) (Proc.devRef .tc main_v3) = _
  after_results; rfl

/-- The destination rows of the node array, one per edge: the same gather, by the same wrapped indices, as the
    reference's. The gather itself is never opened. -/
theorem head_dst (c : Dev nD) :
    V m c main_v10 = Cert.ReferenceIdeal.Read.val_main_v10 (F := Ideal) (m ((c : Thread nD τ).loc main_arg0))
      (m ((c : Thread nD τ).loc main_arg6)) := by
  show StableHlo.after hostOps0 (fun b => m (c, b)) (Proc.devRef .tc main_v10) = _
  after_results; rfl

/-- The source rows, likewise. -/
theorem head_src (c : Dev nD) :
    V m c main_v17 = Cert.ReferenceIdeal.Read.val_main_v17 (F := Ideal) (m ((c : Thread nD τ).loc main_arg0))
      (m ((c : Thread nD τ).loc main_arg6)) := by
  show StableHlo.after hostOps0 (fun b => m (c, b)) (Proc.devRef .tc main_v17) = _
  after_results; rfl

/-! ## What the operations after the region make of the edge array -/

/-- From the edge array `h` to the result: the edges are summed into their destination nodes, each node's sum is
    scaled by the first column of `p`, and the nodes are summed into their graphs. Both programs apply this same chain
    to their edge arrays, so it is carried as one function and never opened. -/
def pooled (h : (⟨S1600000x64, .f32⟩ : BufTy).Contents (Elt Ideal)) (x1 : (⟨S100000x4, .f32⟩ : BufTy).Contents (Elt Ideal))
    (x6 : (⟨S2x1600000, .i32⟩ : BufTy).Contents (Elt Ideal)) (x7 : (⟨S100000, .i32⟩ : BufTy).Contents (Elt Ideal)) :
    (⟨S128x64, .f32⟩ : BufTy).Contents (Elt Ideal) :=
  Host.scatterAdd (F := Ideal) scatter_S128x64_S100000x1_S100000x64_1_0_0_1
    (broadcastInDim S128x64 ![] Facts₀.bcast_S_S128x64 (constant (F := Ideal) S_ .f32 0x00000000#32))
    (broadcastInDim S100000x1 ![0] Facts₀.bcast_S100000_S100000x1_0 x7)
    (mulf (F := Ideal) (broadcastInDim S100000x64 ![0, 1] Facts₀.bcast_S100000x1_S100000x64_0_1
        (extractStridedSlice S100000x1 ![0, 0] x1 Facts₀.slices_S100000x4_S100000x1_0_0))
      (Host.scatterAdd (F := Ideal) scatter_S100000x64_S1600000x1_S1600000x64_1_0_0_1
        (broadcastInDim S100000x64 ![] Facts₀.bcast_S_S100000x64 (constant (F := Ideal) S_ .f32 0x00000000#32))
        (broadcastInDim S1600000x1 ![0] Facts₀.bcast_S1600000_S1600000x1_0
          (shapeCast S1600000 (extractStridedSlice S1x1600000 ![1, 0] x6 Facts₀.slices_S2x1600000_S1x1600000_1_0)
            Facts₀.shapeCasts_S1x1600000_S1600000))
        h))

/-- The kernel program's result: the operations after the region applied to whatever the region left in its output
    array (`E`), to the destination indices computed before the region, and to the untouched arguments. -/
theorem tail_eq (c : Dev nD) (E : (⟨S1600000x64, .f32⟩ : BufTy).Contents (Elt Ideal))
    (hE : (dats m 0 c).arrAt 7 cfg0.N = E) :
    Pipeline.afterTail₀ cfgs (dats m) 0 (V0 m) [hostOps1] c main_v31
      = pooled E (m ((c : Thread nD τ).loc main_arg1)) (m ((c : Thread nD τ).loc main_arg6))
          (m ((c : Thread nD τ).loc main_arg7)) := by
  unfold Pipeline.afterTail₀
  show StableHlo.after hostOps1 _ (Proc.devRef .tc main_v31) = _
  after_results
  have a7 : Pipeline.withArrays (cfgs 0).spec c (V0 m c) (fun w => (dats m 0 c).arrAt w (cfgs 0).N)
      (Proc.devRef .tc main_arg7) = m ((c : Thread nD τ).loc main_arg7) :=
    (Pipeline.withArrays_of_ne _ c (V0 m c) _ main_arg7
      (by exact (by decide : ∀ w, Pipeline.arrRef spec0 w ≠ main_arg7))).trans (V_main_arg7 m c)
  have a1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  have a3 : Pipeline.withArrays (cfgs 0).spec c (V0 m c) (fun w => (dats m 0 c).arrAt w (cfgs 0).N)
      (Proc.devRef .tc main_v3)
        = shapeCast S1600000 (extractStridedSlice S1x1600000 ![1, 0] (m ((c : Thread nD τ).loc main_arg6))
            Facts₀.slices_S2x1600000_S1x1600000_1_0) Facts₀.shapeCasts_S1x1600000_S1600000 :=
    (Pipeline.withArrays_of_ne _ c (V0 m c) _ main_v3
      (by exact (by decide : ∀ w, Pipeline.arrRef spec0 w ≠ main_v3))).trans (head_dst_index m c)
  have a22 : Pipeline.withArrays (cfgs 0).spec c (V0 m c) (fun w => (dats m 0 c).arrAt w (cfgs 0).N)
      (Proc.devRef .tc main_v22) = E :=
    (Pipeline.withArrays_arr spec0 launch0.win.arr_inj c _ _ 7).trans hE
  rw [a7, a1, a3, a22]
  rfl

end Cert.KernelIdeal.HostAround

end
-- ==== Proof.KernelRun.lean ====
/-
  The kernel program's run, with its result named.

  The frame run of the kernel program ends with the result buffer at "the operations after the region applied to
  what the region left". The region leaves the edge array (blocks to array), whose inputs are the arrays the host
  prepared before the region (the two gathers, the two halves of the first-layer matrix, the two biases as rows),
  and the operations after the region are the chain `pooled`. So the result is `pooled` of the edge array of the
  ARGUMENTS: one closed function of the eight argument arrays, stated with the reference's own gather terms so that
  the reference's run can be compared with it term by term. The argument arrays end as they were launched.
-/
import proofs.«103658_j10943576670837_1_alg».proof.Proof.BlocksToArray
import proofs.«103658_j10943576670837_1_alg».proof.Proof.HostAround

noncomputable section

namespace Cert.KernelIdeal.Result

open Cert.KernelIdeal Cert.KernelIdeal.Gen Idealize.ShloMosaic Idealize.ShloMosaic.TcCoe Idealize.SL.Sem
open Cert.KernelIdeal.HostAround

variable (m : (ℓ : Loc nD τ sig) → Buf (Elt Ideal) ℓ) (ρ : Dev nD → PrngReg)

/-- The edge array as a function of the argument arrays: every edge's destination and source rows (the reference's
    two gather terms) through the two-layer network whose first-layer matrix is given as its two halves and whose
    biases are given as one-row matrices. -/
abbrev edgesOfArgs (c : Dev nD) : (⟨S1600000x64, .f32⟩ : BufTy).Contents (Elt Ideal) :=
  Cert.EdgeMlp.edges
    (Cert.ReferenceIdeal.Read.val_main_v10 (F := Ideal) (m ((c : Thread nD τ).loc main_arg0)) (m ((c : Thread nD τ).loc main_arg6)))
    (Cert.ReferenceIdeal.Read.val_main_v17 (F := Ideal) (m ((c : Thread nD τ).loc main_arg0)) (m ((c : Thread nD τ).loc main_arg6)))
    (extractStridedSlice S64x128 ![0, 0] (m ((c : Thread nD τ).loc main_arg2)) Facts₀.slices_S128x128_S64x128_0_0)
    (extractStridedSlice S64x128 ![64, 0] (m ((c : Thread nD τ).loc main_arg2)) Facts₀.slices_S128x128_S64x128_64_0)
    (shapeCast S1x128 (m ((c : Thread nD τ).loc main_arg3)) Facts₀.shapeCasts_S128_S1x128)
    (m ((c : Thread nD τ).loc main_arg4))
    (shapeCast S1x64 (m ((c : Thread nD τ).loc main_arg5)) Facts₀.shapeCasts_S64_S1x64)

/-- The program's result as a function of the argument arrays. -/
abbrev result (c : Dev nD) : (⟨S128x64, .f32⟩ : BufTy).Contents (Elt Ideal) :=
  pooled (edgesOfArgs m c) (m ((c : Thread nD τ).loc main_arg1)) (m ((c : Thread nD τ).loc main_arg6))
    (m ((c : Thread nD τ).loc main_arg7))

/-- After the region the output array is the edge array of the arguments. -/
theorem region_leaves (c : Dev nD) : (dats m 0 c).arrAt 7 cfg0.N = edgesOfArgs m c := by
  rw [Cert.KernelIdeal.EdgeArray.final m c]
  show Cert.EdgeMlp.edges (V m c main_v10) (V m c main_v17) (V m c main_v18) (V m c main_v19) (V m c main_v20)
    (V m c main_arg4) (V m c main_v21) = _
  rw [head_dst m c, head_src m c, head_wa m c, head_wb m c, head_c1 m c, V_main_arg4 m c, head_c2 m c]

/-- What the result buffer holds after the operations that follow the region. -/
theorem tail_result (c : Dev nD) :
    Pipeline.afterTail₀ cfgs (dats m) 0 (V0 m) [hostOps1] c main_v31 = result m c :=
  tail_eq m c (edgesOfArgs m c) (region_leaves m c)

/-- Every weakly fair execution of the kernel program terminates with the result buffer at `result` of the
    arguments and the arguments unchanged. The argument clauses are the generated frame's: an array no window
    stages is what the operations after the region leave of it, the staged second-layer matrix is an input window's
    array. -/
theorem run : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v31 (Pipeline.mem_restRefs_of main_v31 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.ReferenceEdge.lean ====
/-
  The reference program's edge array, read at an index.

  For edge `e` the reference joins the destination row and the source row (64 features each, two opaque gathers
  of the node array) into one row of 128 entries, multiplies it by the whole 128 × 128 first-layer matrix, adds the
  bias, rectifies against the zero word, multiplies by the 128 × 64 second-layer matrix and adds the second bias.
  Read index by index this is `Cert.EdgeMlp.edgeOut`: a product with the joined row is a sum of 128 terms, its first
  64 terms read the destination row against the top half of the matrix and its last 64 terms read the source row
  against the bottom half. Nothing but the splitting of that sum in two is used; the two gathers stay opaque.
-/
import proofs.«103658_j10943576670837_1_alg».proof.Proof.Gen.ReferenceIdeal.Read
import proofs.«103658_j10943576670837_1_alg».proof.Proof.EdgeMlp
import Idealize.ShloMosaic.Lib.ValueIdx
import Idealize.ShloMosaic.Lib.Pipeline.Value

noncomputable section

open scoped BigOperators

namespace Cert.ReferenceIdeal.EdgeValue
open Cert.ReferenceIdeal Cert.ReferenceIdeal.Gen Cert.ReferenceIdeal.Read Idealize.ShloMosaic Idealize.ShloMosaic.ValueIdx

/-- The joined row at a column below 64 is the destination row at the same column. -/
theorem joined_left (x0 : (⟨S100000x64, .f32⟩ : BufTy).Contents (Elt Ideal)) (x6 : (⟨S2x1600000, .i32⟩ : BufTy).Contents (Elt Ideal))
    (y : S1600000x128.Idx) (r : Fin 1600000) (k : Fin 64) (h0 : (y 0).val = r.val) (h1 : (y 1).val = k.val) :
    val_main_v18 (F := Ideal) x0 x6 y = val_main_v10 (F := Ideal) x0 x6 (ix2 r k) := by
  unfold val_main_v18
  generalize val_main_v10 (F := Ideal) x0 x6 = xd
  generalize val_main_v17 (F := Ideal) x0 x6 = xs
  exact concatenate_pair_apply_left 1 xd xs concatenates_S1600000x64_S1600000x64_S1600000x128_d1 y rfl (ix2 r k)
    (fun b => by match b with | ⟨0, _⟩ => exact h0.symm | ⟨1, _⟩ => exact h1.symm)

/-- The joined row at a column `64 + k` is the source row at column `k`. -/
theorem joined_right (x0 : (⟨S100000x64, .f32⟩ : BufTy).Contents (Elt Ideal)) (x6 : (⟨S2x1600000, .i32⟩ : BufTy).Contents (Elt Ideal))
    (y : S1600000x128.Idx) (r : Fin 1600000) (k : Fin 64) (h0 : (y 0).val = r.val) (h1 : (y 1).val = 64 + k.val) :
    val_main_v18 (F := Ideal) x0 x6 y = val_main_v17 (F := Ideal) x0 x6 (ix2 r k) := by
  unfold val_main_v18
  generalize val_main_v10 (F := Ideal) x0 x6 = xd
  generalize val_main_v17 (F := Ideal) x0 x6 = xs
  exact concatenate_pair_apply_right 1 xd xs concatenates_S1600000x64_S1600000x64_S1600000x128_d1 y rfl rfl (ix2 r k)
    (fun b hb => by match b, hb with | ⟨0, _⟩, _ => exact h0.symm | ⟨1, _⟩, hb => exact absurd rfl hb)
    (by show k.val + 64 = (y 1).val; omega)

/-- Hidden unit `j` of edge `r`: the rectified first layer of the reference, at an index, is `Cert.EdgeMlp.hidden`
    of the edge's two rows, the two halves of the first-layer matrix and its bias. -/
theorem hidden_apply (x0 : (⟨S100000x64, .f32⟩ : BufTy).Contents (Elt Ideal)) (x2 : (⟨S128x128, .f32⟩ : BufTy).Contents (Elt Ideal))
    (x3 : (⟨S128, .f32⟩ : BufTy).Contents (Elt Ideal)) (x6 : (⟨S2x1600000, .i32⟩ : BufTy).Contents (Elt Ideal))
    (y : S1600000x128.Idx) (r : Fin 1600000) (j : Fin 128) (h0 : (y 0).val = r.val) (h1 : (y 1).val = j.val) :
    val_main_v23 (F := Ideal) x0 x2 x3 x6 y
      = Cert.EdgeMlp.hidden (fun k => val_main_v10 (F := Ideal) x0 x6 (ix2 r k)) (fun k => val_main_v17 (F := Ideal) x0 x6 (ix2 r k))
          (fun k j => x2 (ix2 ⟨k.val, by omega⟩ j)) (fun k j => x2 (ix2 ⟨64 + k.val, by omega⟩ j))
          (fun j => x3 (ix1 j)) j := by
  unfold Cert.EdgeMlp.hidden
  rw [val_main_v23_apply, val_main_v22_apply, val_main_v21_apply, val_main_v20_apply, val_main_call0_v0_apply,
    val_main_call0_cst_apply, val_main_v19_apply]
  refine congrArg₂ max (congrArg₂ (· + ·) ?_ ?_) rfl
  · -- the product with the joined row: 128 terms, split in two halves of 64
    refine (Cert.EdgeMlp.sum_halves _).trans ?_
    refine congrArg₂ (· + ·) (Finset.sum_congr rfl fun k _ => ?_) (Finset.sum_congr rfl fun k _ => ?_)
    · refine congrArg₂ (· * ·) (joined_left x0 x6 _ r k h0 rfl) (congrArg x2 ?_)
      exact funext fun a => Fin.ext (by match a with | ⟨0, _⟩ => rfl | ⟨1, _⟩ => exact h1)
    · refine congrArg₂ (· * ·) (joined_right x0 x6 _ r k h0 rfl) (congrArg x2 ?_)
      exact funext fun a => Fin.ext (by match a with | ⟨0, _⟩ => rfl | ⟨1, _⟩ => exact h1)
  · -- the bias, broadcast along the rows
    exact congrArg x3 (funext fun a => Fin.ext (by match a with | ⟨0, _⟩ => exact h1))

/-- The reference's edge array at row `r`, column `o`. -/
theorem edge_apply_ix (x0 : (⟨S100000x64, .f32⟩ : BufTy).Contents (Elt Ideal)) (x2 : (⟨S128x128, .f32⟩ : BufTy).Contents (Elt Ideal))
    (x3 : (⟨S128, .f32⟩ : BufTy).Contents (Elt Ideal)) (x4 : (⟨S128x64, .f32⟩ : BufTy).Contents (Elt Ideal))
    (x5 : (⟨S64, .f32⟩ : BufTy).Contents (Elt Ideal)) (x6 : (⟨S2x1600000, .i32⟩ : BufTy).Contents (Elt Ideal))
    (r : Fin 1600000) (o : Fin 64) :
    val_main_v27 (F := Ideal) x0 x2 x3 x4 x5 x6 (ix2 r o)
      = Cert.EdgeMlp.edgeOut (fun k => val_main_v10 (F := Ideal) x0 x6 (ix2 r k)) (fun k => val_main_v17 (F := Ideal) x0 x6 (ix2 r k))
          (fun k j => x2 (ix2 ⟨k.val, by omega⟩ j)) (fun k j => x2 (ix2 ⟨64 + k.val, by omega⟩ j))
          (fun j => x3 (ix1 j)) (fun j o => x4 (ix2 j o)) (fun o => x5 (ix1 o)) o := by
  unfold Cert.EdgeMlp.edgeOut
  rw [val_main_v27_apply, val_main_v26_apply, val_main_v25_apply, val_main_v24_apply]
  refine congrArg₂ (· + ·) (Finset.sum_congr rfl fun j _ => ?_) ?_
  · refine congrArg₂ (· * ·) (hidden_apply x0 x2 x3 x6 _ r j rfl rfl) (congrArg x4 ?_)
    exact funext fun a => Fin.ext (by match a with | ⟨0, _⟩ => rfl | ⟨1, _⟩ => rfl)
  · exact congrArg x5 (funext fun a => Fin.ext (by match a with | ⟨0, _⟩ => rfl))

/-- The reference's edge array at an index `i`: row `i 0` of the two gathered arrays through the two-layer
    rectified network, output `i 1`. -/
theorem edge_apply (x0 : (⟨S100000x64, .f32⟩ : BufTy).Contents (Elt Ideal)) (x2 : (⟨S128x128, .f32⟩ : BufTy).Contents (Elt Ideal))
    (x3 : (⟨S128, .f32⟩ : BufTy).Contents (Elt Ideal)) (x4 : (⟨S128x64, .f32⟩ : BufTy).Contents (Elt Ideal))
    (x5 : (⟨S64, .f32⟩ : BufTy).Contents (Elt Ideal)) (x6 : (⟨S2x1600000, .i32⟩ : BufTy).Contents (Elt Ideal)) (i : S1600000x64.Idx) :
    val_main_v27 (F := Ideal) x0 x2 x3 x4 x5 x6 i
      = Cert.EdgeMlp.edgeOut (fun k => val_main_v10 (F := Ideal) x0 x6 (ix2 (i 0) k)) (fun k => val_main_v17 (F := Ideal) x0 x6 (ix2 (i 0) k))
          (fun k j => x2 (ix2 ⟨k.val, by omega⟩ j)) (fun k j => x2 (ix2 ⟨64 + k.val, by omega⟩ j))
          (fun j => x3 (ix1 j)) (fun j o => x4 (ix2 j o)) (fun o => x5 (ix1 o)) (i 1) :=
  (congrArg (val_main_v27 (F := Ideal) x0 x2 x3 x4 x5 x6) (eq_ix2 i)).trans (edge_apply_ix x0 x2 x3 x4 x5 x6 (i 0) (i 1))

end Cert.ReferenceIdeal.EdgeValue

end
-- ==== Proof.EdgesAgree.lean ====
/-
  The reference's whole edge array is the shared edge function of the prepared weight arrays.

  `Cert.EdgeMlp.edges` takes the first-layer matrix as its two halves (64 × 128 each) and the two biases as one-row
  matrices. Cutting rows 0–63 and rows 64–127 out of the 128 × 128 matrix gives exactly the entries `(k, j)` and
  `(64 + k, j)` that the reference's sum over the joined row of 128 entries meets in its first and in its last 64
  terms; reshaping a bias of length `n` into a `1 × n` matrix puts entry `j` at `(0, j)`. With these four readings
  the edge array of the reference, read index by index, is `edges` of the two gathered row arrays, the two halves,
  the second-layer matrix and the two reshaped biases.
-/
import proofs.«103658_j10943576670837_1_alg».proof.Proof.ReferenceEdge
import proofs.«103658_j10943576670837_1_alg».proof.Proof.Gen.KernelIdeal
import proofs.«103658_j10943576670837_1_alg».proof.Proof.EdgeMlp
import Idealize.ShloMosaic.Lib.ValueIdx
import Idealize.ShloMosaic.Lib.Pipeline.Value

noncomputable section

open scoped BigOperators

namespace Cert.EdgesAgree
open Cert.ReferenceIdeal Cert.ReferenceIdeal.Gen Cert.ReferenceIdeal.Read Idealize.ShloMosaic Idealize.ShloMosaic.ValueIdx

/-- Rows 0–63 of the first-layer matrix: entry `(k, j)` of the slice is entry `(k, j)` of the matrix. -/
theorem top_half (x2 : (⟨S128x128, .f32⟩ : BufTy).Contents (Elt Ideal)) (k : Fin 64) (j : Fin 128) :
    extractStridedSlice Cert.KernelIdeal.S64x128 ![0, 0] x2 Cert.KernelIdeal.Facts₀.slices_S128x128_S64x128_0_0 (ix2 k j)
      = x2 (ix2 ⟨k.val, by omega⟩ j) :=
  extractStridedSlice_apply ![0, 0] x2 Cert.KernelIdeal.Facts₀.slices_S128x128_S64x128_0_0 (ix2 k j) (ix2 ⟨k.val, by omega⟩ j)
    (fun a => match a with
      | ⟨0, _⟩ => by show k.val = 0 + k.val; omega
      | ⟨1, _⟩ => by show j.val = 0 + j.val; omega)

/-- Rows 64–127 of the first-layer matrix: entry `(k, j)` of the slice is entry `(64 + k, j)` of the matrix. -/
theorem bottom_half (x2 : (⟨S128x128, .f32⟩ : BufTy).Contents (Elt Ideal)) (k : Fin 64) (j : Fin 128) :
    extractStridedSlice Cert.KernelIdeal.S64x128 ![64, 0] x2 Cert.KernelIdeal.Facts₀.slices_S128x128_S64x128_64_0 (ix2 k j)
      = x2 (ix2 ⟨64 + k.val, by omega⟩ j) :=
  extractStridedSlice_apply ![64, 0] x2 Cert.KernelIdeal.Facts₀.slices_S128x128_S64x128_64_0 (ix2 k j) (ix2 ⟨64 + k.val, by omega⟩ j)
    (fun a => match a with
      | ⟨0, _⟩ => by show 64 + k.val = 64 + k.val; omega
      | ⟨1, _⟩ => by show j.val = 0 + j.val; omega)

/-- The first bias as a one-row matrix: entry `(0, j)` is entry `j` of the bias. -/
theorem bias1_row (x3 : (⟨S128, .f32⟩ : BufTy).Contents (Elt Ideal)) (j : Fin 128) :
    shapeCast Cert.KernelIdeal.S1x128 x3 Cert.KernelIdeal.Facts₀.shapeCasts_S128_S1x128 (ix2 (0 : Fin 1) j) = x3 (ix1 j) :=
  shapeCast_apply x3 Cert.KernelIdeal.Facts₀.shapeCasts_S128_S1x128 (ix2 (0 : Fin 1) j) (ix1 j)
    (by rewrite [Shape.rowMajor_val_two, Shape.rowMajor_val_one]; show j.val = 0 * 128 + j.val; omega)

/-- The second bias as a one-row matrix: entry `(0, o)` is entry `o` of the bias. -/
theorem bias2_row (x5 : (⟨S64, .f32⟩ : BufTy).Contents (Elt Ideal)) (o : Fin 64) :
    shapeCast Cert.KernelIdeal.S1x64 x5 Cert.KernelIdeal.Facts₀.shapeCasts_S64_S1x64 (ix2 (0 : Fin 1) o) = x5 (ix1 o) :=
  shapeCast_apply x5 Cert.KernelIdeal.Facts₀.shapeCasts_S64_S1x64 (ix2 (0 : Fin 1) o) (ix1 o)
    (by rewrite [Shape.rowMajor_val_two, Shape.rowMajor_val_one]; show o.val = 0 * 64 + o.val; omega)

/-- An edge's output depends on the two half matrices and the two biases only through their entries. -/
theorem edgeOut_congr {a b : Fin 64 → EReal} {Wa Wa' Wb Wb' : Fin 64 → Fin 128 → EReal} {c1 c1' : Fin 128 → EReal}
    {W2 : Fin 128 → Fin 64 → EReal} {c2 c2' : Fin 64 → EReal} {o : Fin 64}
    (hWa : ∀ k j, Wa k j = Wa' k j) (hWb : ∀ k j, Wb k j = Wb' k j) (hc1 : ∀ j, c1 j = c1' j) (hc2 : ∀ o, c2 o = c2' o) :
    Cert.EdgeMlp.edgeOut a b Wa Wb c1 W2 c2 o = Cert.EdgeMlp.edgeOut a b Wa' Wb' c1' W2 c2' o := by
  obtain rfl : Wa = Wa' := funext fun k => funext (hWa k)
  obtain rfl : Wb = Wb' := funext fun k => funext (hWb k)
  obtain rfl : c1 = c1' := funext hc1
  obtain rfl : c2 = c2' := funext hc2
  rfl

/-- The reference's edge array is `Cert.EdgeMlp.edges` of the two gathered row arrays, the two halves of the
    first-layer matrix, the second-layer matrix and the two biases as one-row matrices. -/
theorem reference_edges (x0 : (⟨S100000x64, .f32⟩ : BufTy).Contents (Elt Ideal)) (x2 : (⟨S128x128, .f32⟩ : BufTy).Contents (Elt Ideal))
    (x3 : (⟨S128, .f32⟩ : BufTy).Contents (Elt Ideal)) (x4 : (⟨S128x64, .f32⟩ : BufTy).Contents (Elt Ideal))
    (x5 : (⟨S64, .f32⟩ : BufTy).Contents (Elt Ideal)) (x6 : (⟨S2x1600000, .i32⟩ : BufTy).Contents (Elt Ideal)) :
    val_main_v27 (F := Ideal) x0 x2 x3 x4 x5 x6
      = Cert.EdgeMlp.edges (val_main_v10 (F := Ideal) x0 x6) (val_main_v17 (F := Ideal) x0 x6)
          (extractStridedSlice Cert.KernelIdeal.S64x128 ![0, 0] x2 Cert.KernelIdeal.Facts₀.slices_S128x128_S64x128_0_0)
          (extractStridedSlice Cert.KernelIdeal.S64x128 ![64, 0] x2 Cert.KernelIdeal.Facts₀.slices_S128x128_S64x128_64_0)
          (shapeCast Cert.KernelIdeal.S1x128 x3 Cert.KernelIdeal.Facts₀.shapeCasts_S128_S1x128) x4
          (shapeCast Cert.KernelIdeal.S1x64 x5 Cert.KernelIdeal.Facts₀.shapeCasts_S64_S1x64) := by
  funext i
  refine (Cert.ReferenceIdeal.EdgeValue.edge_apply x0 x2 x3 x4 x5 x6 i).trans ?_
  generalize val_main_v10 (F := Ideal) x0 x6 = xd
  generalize val_main_v17 (F := Ideal) x0 x6 = xs
  unfold Cert.EdgeMlp.edges
  exact edgeOut_congr (fun k j => (top_half x2 k j).symm) (fun k j => (bottom_half x2 k j).symm)
    (fun j => (bias1_row x3 j).symm) (fun o => (bias2_row x5 o).symm)

end Cert.EdgesAgree

end
-- ==== Proof.lean ====
/-
  Two programs compute a message-passing layer over a graph of 100,000 nodes and 1,600,000 edges and pool it over
  128 graphs; this file proves that at the ideal instance (floats are extended reals, operations exact) they end
  with the same result, and that each of the three printed programs runs to its end leaving its arguments as
  launched.

  Both programs gather, for every edge, the destination row and the source row of the node array (64 features
  each), send the pair through a two-layer rectified network, sum the 64 outputs of the edges into their destination
  nodes, scale each node by the first column of `p`, and sum the nodes into their graphs.

  They differ only in how the first layer is spelt. The reference joins the two rows into one row of 128 entries and
  multiplies it by the whole 128 × 128 matrix. The kernel multiplies the destination row by the top half of the
  matrix and the source row by the bottom half and adds the two products; it does so in a tiled region, 6400 edges at
  a grid point, with the matrices and biases resident. A sum of 128 terms is the sum of its first 64 and its last 64
  terms on the extended reals whatever the entries are, so the two spellings are one function of the arguments
  (`Cert.EdgeMlp.edges`), and nothing about finiteness of the inputs is used.

  The pieces: the kernel's stored block read at an index, and the blocks assembled into the whole edge array; the
  host operations before the region (the prepared inputs) and after it (the pooling chain, carried as one opaque
  function of the edge array); the reference's stages read down to the same per-edge formula. The gathers and the
  scatter-adds are the same operations on the same arguments in both programs and are never opened.

  The idealization rewrote nothing in the kernel (its ledger is empty), so that conjunct is `True`.
-/
import proofs.«103658_j10943576670837_1_alg».proof.Defs
import proofs.«103658_j10943576670837_1_alg».proof.Proof.Gen.Kernel
import proofs.«103658_j10943576670837_1_alg».proof.Proof.Gen.Kernel.Skeleton
import proofs.«103658_j10943576670837_1_alg».proof.Proof.Gen.Kernel.Launch
import proofs.«103658_j10943576670837_1_alg».proof.Proof.Gen.Kernel.Points
import proofs.«103658_j10943576670837_1_alg».proof.Proof.Gen.Kernel.Frame
import proofs.«103658_j10943576670837_1_alg».proof.Proof.Gen.KernelIdeal
import proofs.«103658_j10943576670837_1_alg».proof.Proof.Gen.KernelIdeal.Skeleton
import proofs.«103658_j10943576670837_1_alg».proof.Proof.Gen.KernelIdeal.Launch
import proofs.«103658_j10943576670837_1_alg».proof.Proof.Gen.KernelIdeal.Points
import proofs.«103658_j10943576670837_1_alg».proof.Proof.Gen.KernelIdeal.Frame
import proofs.«103658_j10943576670837_1_alg».proof.Proof.Gen.ReferenceIdeal
import proofs.«103658_j10943576670837_1_alg».proof.Proof.Gen.Pre_finite_inputs
import proofs.«103658_j10943576670837_1_alg».proof.Proof.Gen.ReferenceIdeal.Run
import proofs.«103658_j10943576670837_1_alg».proof.Proof.Gen.ReferenceIdeal.Read
import proofs.«103658_j10943576670837_1_alg».proof.Proof.KernelRun
import proofs.«103658_j10943576670837_1_alg».proof.Proof.EdgesAgree
import Idealize.ShloMosaic.Adequacy
import Idealize.ShloMosaic.Init

noncomputable section

namespace Cert.Proof

open Idealize.ShloMosaic Idealize.ShloMosaic.TcCoe Idealize.SL.Sem

/-! ## The reference's result through the same pooling chain -/

section Reference

open Cert.ReferenceIdeal Cert.ReferenceIdeal.Gen Cert.ReferenceIdeal.Read

/-- The reference's last stage is the pooling chain applied to its edge array: the operations that follow the edge
    array are the same in both programs, on the same arguments. -/
theorem reference_pooled (x0 : (⟨S100000x64, .f32⟩ : BufTy).Contents (Elt Ideal)) (x1 : (⟨S100000x4, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S2x1600000, .i32⟩ : BufTy).Contents (Elt Ideal)) (x7 : (⟨S100000, .i32⟩ : BufTy).Contents (Elt Ideal)) :
    val_main_v36 (F := Ideal) x0 x1 x2 x3 x4 x5 x6 x7
      = Cert.KernelIdeal.HostAround.pooled (val_main_v27 (F := Ideal) x0 x2 x3 x4 x5 x6) x1 x6 x7 := rfl

end Reference

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the pooling chain applied to ONE edge array: the
    kernel's by its run (`Cert.KernelIdeal.Result.run`), the reference's by reading its stages
    (`Cert.EdgesAgree.reference_edges`). -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v36_eq, reference_pooled, Cert.EdgesAgree.reference_edges,
    h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
